-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S800000 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 26
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x128, .bf16⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .bf16⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelArray.lean ====
/-
  From the ten blocks to the whole result array — for any reading of the float operations.

  The grid has ten points; point `t` reads rows 5000·t … 5000·t + 4999 of the aggregated features (all 128
  columns), the whole weight matrix and the whole bias row, and writes back rows 5000·t … 5000·t + 4999 of the
  result.  Row `r` of the result therefore belongs to point `r / 5000` and sits at row `r mod 5000` of that
  point's block.  `stitched` is the array this describes: at index (r, c), what point `r / 5000` stores at
  (r mod 5000, c).  Every point writes back its own rows of `stitched`, and the ten row ranges cover all 50000
  rows, so after the run the result array is `stitched`.  The input blocks are then read off the arrays the
  region found: the features' block at (p, k) is the array at (5000·t + p, k); the weights and the bias are whole.
  Nothing here depends on what the float operations compute.
-/
import proofs.«153099_j43018392437371_2_alg».proof.Proof.Gen.KernelIdeal.Value
import Idealize.ShloMosaic.Lib.ValueIdx

noncomputable section

namespace Cert.GraphConv.Kernel

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

theorem offsets_zero : (![0, 0] : Fin 2 → Nat) = fun _ => 0 := funext fun a => by fin_cases a <;> rfl

/-- The block index maps over the ten points: the row-blocked windows sit at block row `t`, everything else at 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Reading a block off an array -/

/-- Rows 5000·t … of a [50000, 128] array through window 0's block at point `t`. -/
theorem read_rows (A : S50000x128.Idx → Elt F .f32) (t : Fin cfg0.N) (p : Fin 5000) (k : Fin 128) (i : S50000x128.Idx)
    (h0 : (i 0).val = t.val * 5000 + p.val) (h1 : (i 1).val = k.val) :
    (((cfg0.win 0).blk t).view.read (Elt F) A : Vec F S5000x128 .f32) (ix2 p k) = A i := by
  obtain ⟨e0, e1, -⟩ := block_indices t
  rw [View.read_apply]
  show A _ = A i
  refine congrArg A (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The whole [128, 128] array through window 1's block at any point. -/
theorem read_weights (W : S128x128.Idx → Elt F .f32) (t : Fin cfg0.N) (k q : Fin 128) :
    (((cfg0.win 1).blk t).view.read (Elt F) W : Vec F S128x128 .f32) (ix2 k q) = W (ix2 k q) := by
  obtain ⟨-, -, e0, e1, -⟩ := block_indices t
  rw [View.read_apply]
  show W _ = W (ix2 k q)
  refine congrArg W (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The whole [1, 128] row through window 2's block at any point. -/
theorem read_bias (B : S1x128.Idx → Elt F .f32) (t : Fin cfg0.N) (q : Fin 128) :
    (((cfg0.win 2).blk t).view.read (Elt F) B : Vec F S1x128 .f32) (ix2 0 q) = B (ix2 0 q) := by
  obtain ⟨-, -, -, -, e0, e1, -⟩ := block_indices t
  rw [View.read_apply]
  show B _ = B (ix2 0 q)
  refine congrArg B (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Point `t`'s block of the aggregated features, at (p, k): the array at row 5000·t + p. -/
theorem features_block (c : Dev nD) (t : Fin cfg0.N) (p : Fin 5000) (k : Fin 128) (i : S50000x128.Idx)
    (h0 : (i 0).val = t.val * 5000 + p.val) (h1 : (i 1).val = k.val) :
    (iblk m c 0 t : Vec F S5000x128 .f32) (ix2 p k) = V m c main_v14 i :=
  read_rows (V m c main_v14) t p k i h0 h1

/-- Every point's block of the weights is the whole matrix. -/
theorem weights_block (c : Dev nD) (t : Fin cfg0.N) (k q : Fin 128) :
    (iblk m c 1 t : Vec F S128x128 .f32) (ix2 k q) = V m c main_arg1 (ix2 k q) :=
  read_weights (V m c main_arg1) t k q

/-- Every point's block of the bias is the whole row. -/
theorem bias_block (c : Dev nD) (t : Fin cfg0.N) (q : Fin 128) :
    (iblk m c 2 t : Vec F S1x128 .f32) (ix2 0 q) = V m c main_v15 (ix2 0 q) :=
  read_bias (V m c main_v15) t q

/-! ## The result array -/

/-- The point whose block holds result row `r`: `r / 5000`. -/
def pointOf (i : S50000x128.Idx) : Fin cfg0.N :=
  ⟨(i 0).val / 5000, by rw [show cfg0.N = 10 from N_0]; have := idx2_lt0 i; omega⟩

/-- Where result index (r, c) sits in that block: (r mod 5000, c). -/
def within (i : S50000x128.Idx) : S5000x128.Idx :=
  ix2 ⟨(i 0).val % 5000, Nat.mod_lt _ (by decide)⟩ ⟨(i 1).val, idx2_lt1 i⟩

/-- The result array: at each index, what the point holding its row stores at its place in the block. -/
def stitched (c : Dev nD) : S50000x128.Idx → Elt F .f32 := fun i =>
  k0_pay1 (iblk m c 0 (pointOf i)) (iblk m c 1 (pointOf i)) (iblk m c 2 (pointOf i)) (within i)

theorem stitched_apply (c : Dev nD) (i : S50000x128.Idx) :
    stitched m c i = k0_pay1 (iblk m c 0 (pointOf i)) (iblk m c 1 (pointOf i)) (iblk m c 2 (pointOf i)) (within i) := rfl

/-- Row `r`, column `q` sits at row `r mod 5000`, column `q` of its block. -/
theorem within_ix2 (r : Fin 50000) (q : Fin 128) :
    within (ix2 r q) = ix2 ⟨r.val % 5000, Nat.mod_lt _ (by decide)⟩ q := rfl

/-- Row `r` is row `r mod 5000` of block `r / 5000`. -/
theorem row_split (r : Fin 50000) (q k : Fin 128) :
    ((ix2 r k : S50000x128.Idx) 0).val = (pointOf (ix2 r q)).val * 5000 + r.val % 5000 := by
  show r.val = r.val / 5000 * 5000 + r.val % 5000
  omega

/-- WHAT POINT `t` WRITES BACK is its rows of `stitched`. -/
theorem flushed_eq (c : Dev nD) (t : Fin cfg0.N) :
    (dats m 0 c).flushed 3 t = ((cfg0.win 3).blk t).view.read (Elt F) (stitched m c) := by
  rw [Value.flushed3]
  unfold out0_3
  rw [View.canon_unit_zero offsets_zero]
  simp only [View.ld_unit_zero (S := S5000x128) offsets_zero, View.ld_unit_zero (S := S128x128) offsets_zero,
    View.ld_unit_zero (S := S1x128) offsets_zero]
  obtain ⟨-, -, -, -, -, -, e30, e31⟩ := block_indices t
  funext y
  obtain ⟨p, q, rfl⟩ : ∃ (p : Fin 5000) (q : Fin 128), y = ix2 p q := ⟨y 0, y 1, eq_ix2 y⟩
  show k0_pay1 (iblk m c 0 t) (iblk m c 1 t) (iblk m c 2 t) (ix2 p q)
    = stitched m c (((cfg0.win 3).blk t).view.emb (ix2 p q))
  have hr : ((((cfg0.win 3).blk t).view.emb (ix2 p q)) 0).val = t.val * 5000 + p.val := by
    show win0_3.index t (0 : Fin 2) * 5000 + 1 * p.val = _; omega
  have hc : ((((cfg0.win 3).blk t).view.emb (ix2 p q)) 1).val = q.val := by
    show win0_3.index t (1 : Fin 2) * 128 + 1 * q.val = _; omega
  have hpt : pointOf (((cfg0.win 3).blk t).view.emb (ix2 p q)) = t := Fin.ext (by
    show ((((cfg0.win 3).blk t).view.emb (ix2 p q)) 0).val / 5000 = t.val
    rw [hr]; have := p.isLt; omega)
  have hw : within (((cfg0.win 3).blk t).view.emb (ix2 p q)) = ix2 p q := by
    funext a; apply Fin.ext
    match a with
    | ⟨0, _⟩ =>
      show ((((cfg0.win 3).blk t).view.emb (ix2 p q)) 0).val % 5000 = p.val
      rw [hr]; have := p.isLt; omega
    | ⟨1, _⟩ => exact hc
  unfold stitched
  rw [hpt, hw]

/-- An index of the result array is in point `t`'s block iff each coordinate is in the block's range. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every row belongs to some point's block: row `r` to point `r / 5000`. -/
theorem rows_covered (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  obtain ⟨-, -, -, -, -, -, e30, e31⟩ := block_indices (pointOf i)
  refine ⟨pointOf i, flush0_3 _, ?_⟩
  rw [mem_block]
  intro a
  match a with
  | ⟨0, _⟩ =>
    show win0_3.index (pointOf i) (0 : Fin 2) * 5000 ≤ (i 0).val ∧ (i 0).val < win0_3.index (pointOf i) (0 : Fin 2) * 5000 + 5000
    rw [e30]
    show (i 0).val / 5000 * 5000 ≤ (i 0).val ∧ (i 0).val < (i 0).val / 5000 * 5000 + 5000
    omega
  | ⟨1, _⟩ =>
    show win0_3.index (pointOf i) (1 : Fin 2) * 128 ≤ (i 1).val ∧ (i 1).val < win0_3.index (pointOf i) (1 : Fin 2) * 128 + 128
    rw [e31]
    omega

/-- THE RESULT ARRAY after the run is `stitched`. -/
theorem final (c : Dev nD) : (dats m 0 c).arrAt 3 cfg0.N = stitched m c :=
  (dats m 0 c).arrAt_eq_of_cover 3 (stitched m c) (fun t _ => flushed_eq m c t) rows_covered

end Cert.GraphConv.Kernel

end
-- ==== Proof.KernelBlock.lean ====
/-
  One grid point of the kernel: what the body stores, entry by entry.

  The body loads a block `a` of 5000 rows of the aggregated features, the whole 128 × 128 weight matrix `W` and
  the bias as one row `b`; it multiplies the block by the weights on the matrix unit into a zero accumulator,
  adds the bias row to every row and cuts off below zero.  With exact arithmetic the changes of float format
  are the identity and the matrix product is the plain sum over the 128 contracted positions, so at row `p`
  and column `c` the stored block holds  max(0, Σ_k a[p, k] · W[k, c] + b[0, c]).
  The rows of the block do not mix: row `p` of the result reads row `p` of `a` only.
-/
import proofs.«153099_j43018392437371_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.GraphConv.Kernel

open Cert.KernelIdeal Cert.KernelIdeal.Gen
open Idealize.ShloMosaic Idealize.ShloMosaic.ValueIdx

/-! ## The matrix product's operand indices: output (p, c) and contraction position k read (p, k) and (k, c) -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into the zero accumulator at (p, c): the sum over k of a[p, k] · W[k, c]. -/
theorem block_product (a : FVec Ideal S5000x128 .bf16) (W : FVec Ideal S128x128 .bf16) (p : Fin 5000) (c : Fin 128) :
    FloatOps.matmul dot_S5000x128_S128x128_S5000x128_1_0_0_1_n_n none a W (constant S5000x128 .f32 0x00000000#32) (ix2 p c)
      = ∑ k : Fin 128, a (ix2 p k) * W (ix2 k c) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p c)
      ((contrEquiv1 dot_S5000x128_S128x128_S5000x128_1_0_0_1_n_n 128 rfl rfl).symm k) = ix2 p k := funext fun d => Fin.ext (by
    match d with
    | ⟨0, _⟩ => exact lhs_row _ _
    | ⟨1, _⟩ => exact (lhs_col _ _).trans hk)
  have er : dot_S5000x128_S128x128_S5000x128_1_0_0_1_n_n.rhsIdx (ix2 p c)
      ((contrEquiv1 dot_S5000x128_S128x128_S5000x128_1_0_0_1_n_n 128 rfl rfl).symm k) = ix2 k c := funext fun d => Fin.ext (by
    match d with
    | ⟨0, _⟩ => exact (rhs_row _ _).trans hk
    | ⟨1, _⟩ => exact rhs_col _ _)
  rw [el, er]

/-- The bias row spread over the block's rows, at (p, c), is the bias at column c. -/
theorem bias_spread (b : Vec Ideal S1x128 .f32) (p : Fin 5000) (c : Fin 128) :
    broadcastTo S5000x128 b broadcasts_S1x128_S5000x128 (ix2 p c) = b (ix2 0 c) :=
  broadcastTo_apply b broadcasts_S1x128_S5000x128 (ix2 p c) (ix2 0 c) (fun d => match d with
    | ⟨0, _⟩ => by show 0 = if (1 : Nat) = 1 then 0 else _; rw [if_pos rfl]
    | ⟨1, _⟩ => by show c.val = if (128 : Nat) = 1 then 0 else c.val; rw [if_neg (by decide)])

/-- WHAT THE BODY STORES at row p, column c of its block. -/
theorem stored_apply (a : Vec Ideal S5000x128 .f32) (W : Vec Ideal S128x128 .f32) (b : Vec Ideal S1x128 .f32)
    (p : Fin 5000) (c : Fin 128) :
    k0_pay1 (F := Ideal) a W b (ix2 p c) = max ((∑ k : Fin 128, a (ix2 p k) * W (ix2 k c)) + b (ix2 0 c)) 0 := by
  unfold k0_pay1
  simp only [shapeCast_self, matmul]
  rw [maximumf_apply, addf_apply, block_product, bias_spread, broadcast_apply]
  show max _ (Ideal.ofBits .f32 0x00000000#32) = _
  rw [Ideal.ofBits_zero_f32]
  rfl

end Cert.GraphConv.Kernel

end
-- ==== Proof.LibScatterLanding.lean ====
/-
  Where a scatter's update lands, for ANY scatter dimension numbers.

  An update element `j` of a `stablehlo.scatter` lands on operand index `i` exactly when, on every operand axis,
  the start read off the scatter indices (a signed integer, not clamped) plus `j`'s window coordinate equals `i`'s
  coordinate; otherwise — some axis out of range — the update is dropped.  This turns the option-valued
  `ScatterDims.resultIdx?` into one equation per axis, which is the form in which an accumulating scatter's exact
  sum ("each operand element plus the sum of the updates landing on it") is re-indexed by hand.
-/
import Idealize.ShloMosaic.PureOps.Ideal

namespace Idealize.ShloMosaic.ScatterDims

/-- An update lands on operand index `i` exactly when, on every axis, start plus window coordinate is
    `i`'s coordinate (which is then in range, so nothing is dropped). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro e
      funext a
      apply Fin.ext
      have := e a
      have := h a
      show (d.start j idx a + (d.window j a : Int)).toNat = (i a).val
      omega
  · rename_i h
    constructor
    · intro e; cases e
    · intro e
      exfalso
      apply h
      intro a
      have := e a
      have := (i a).isLt
      omega

end Idealize.ShloMosaic.ScatterDims
-- ==== Proof.EdgeIndex.lean ====
/-
  Where an edge's message lands and which node row it reads.

  The graph has 50000 nodes with 128 features each and 800000 edges.  Edge `e` carries a destination
  word `ri (e, 0)` and a source word `ci (e, 0)`.  The accumulating scatter sends element `(e, k)` of
  the [800000, 128] message array to element `(r, k)` of the [50000, 128] node array, where `r` is the
  destination word read as a signed integer; a message whose destination is not a node is dropped.
  The gather reads, for element `(e, k)`, element `(g, k)` of the node array, where `g` is the source
  word read as a signed integer and clamped into [0, 49999].  Both are statements about the dimension
  numbers only (window axis 1, inserted / collapsed axis 0, one index component naming axis 0).
-/
import Idealize.ShloMosaic.PureOps.Ideal
import Idealize.ShloMosaic.Lib.ValueIdx
import proofs.«153099_j43018392437371_2_alg».proof.Proof.LibScatterLanding

noncomputable section

namespace Cert.GraphConv

open Idealize.ShloMosaic Idealize.ShloMosaic.ValueIdx

/-- Node arrays: one row of 128 features per node. -/
abbrev Nodes : Shape := ⟨2, ![50000, 128]⟩
/-- Message arrays: one row of 128 features per edge. -/
abbrev EdgeRows : Shape := ⟨2, ![800000, 128]⟩
/-- One index word per edge, kept as a column. -/
abbrev EdgeCol : Shape := ⟨2, ![800000, 1]⟩

/-! ## The row scatter -/

/-- The dimension numbers of a scatter of [800000, 128] rows into a [50000, 128] array by one row index per
    edge. -/
abbrev rowScatter (wf : ScatterDims.WF Nodes EdgeCol EdgeRows [1] [0] [0] 1) : ScatterDims Nodes EdgeCol EdgeRows where
  updateWindowDims := [1]
  insertedWindowDims := [0]
  scatterDimsToOperandDims := [0]
  indexVectorDim := 1
  wf := wf

variable (wfS : ScatterDims.WF Nodes EdgeCol EdgeRows [1] [0] [0] 1)

/-- On the node axis the start is the edge's destination word, read signed. -/
theorem rowScatter_start0 {w : Nat} (j : EdgeRows.Idx) (ri : IVec EdgeCol w) :
    (rowScatter wfS).start j ri 0 = (ri (ix2 (j 0) 0)).toInt := by
  unfold ScatterDims.start
  rw [dif_pos (show (0 : Fin Nodes.rank) ∈ (rowScatter wfS).scatterDimsToOperandDims from List.mem_singleton.mpr rfl)]
  have hsi : (rowScatter wfS).siIdx j ⟨List.idxOf (0 : Fin Nodes.rank) (rowScatter wfS).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the feature axis there is no start. -/
theorem rowScatter_start1 {w : Nat} (j : EdgeRows.Idx) (ri : IVec EdgeCol w) :
    (rowScatter wfS).start j ri 1 = 0 := by
  unfold ScatterDims.start
  rw [dif_neg (show (1 : Fin Nodes.rank) ∉ ([0] : List (Fin Nodes.rank)) from by decide)]

/-- The node axis is inserted: no window coordinate. -/
theorem rowScatter_window0 (j : EdgeRows.Idx) : (rowScatter wfS).window j 0 = 0 := by
  unfold ScatterDims.window
  rw [dif_neg (show (0 : Fin Nodes.rank) ∉ Nodes.kept [0] from by decide)]

/-- The feature axis is the window: the message's own feature coordinate. -/
theorem rowScatter_window1 (j : EdgeRows.Idx) : (rowScatter wfS).window j 1 = (j 1).val := by
  unfold ScatterDims.window
  rw [dif_pos (show (1 : Fin Nodes.rank) ∈ Nodes.kept [0] from by decide)]
  rfl

/-- WHERE A MESSAGE LANDS: element `(e, k)` lands on `(r, c)` iff edge `e`'s destination word is `r` and `k = c`. -/
theorem rowScatter_lands {w : Nat} (j : EdgeRows.Idx) (ri : IVec EdgeCol w) (i : Nodes.Idx) :
    (rowScatter wfS).resultIdx? j ri = some i ↔ (ri (ix2 (j 0) 0)).toInt = ((i 0).val : Int) ∧ (j 1) = (i 1) := by
  rw [ScatterDims.resultIdx?_eq_some_iff]
  constructor
  · intro h
    have h0 := h 0
    have h1 := h 1
    rw [rowScatter_start0, rowScatter_window0] at h0
    rw [rowScatter_start1, rowScatter_window1] at h1
    refine ⟨by omega, Fin.ext (by omega)⟩
  · rintro ⟨h0, h1⟩ a
    match a with
    | ⟨0, _⟩ =>
      show (rowScatter wfS).start j ri 0 + ((rowScatter wfS).window j 0 : Int) = ((i 0).val : Int)
      rw [rowScatter_start0, rowScatter_window0]; omega
    | ⟨1, _⟩ =>
      show (rowScatter wfS).start j ri 1 + ((rowScatter wfS).window j 1 : Int) = ((i 1).val : Int)
      rw [rowScatter_start1, rowScatter_window1, h1]; omega

/-! ## The row gather -/

/-- The dimension numbers of a gather of whole rows of a [50000, 128] array by one row index per edge. -/
abbrev rowGather (wf : GatherDims.WF Nodes EdgeCol EdgeRows [1] [0] [] [0] [] 1 ![1, 128]) : GatherDims Nodes EdgeCol EdgeRows where
  offsetDims := [1]
  collapsedSliceDims := [0]
  operandBatchingDims := []
  startIndicesBatchingDims := []
  startIndexMap := [0]
  indexVectorDim := 1
  sliceSizes := ![1, 128]
  wf := wf

variable (wfG : GatherDims.WF Nodes EdgeCol EdgeRows [1] [0] [] [0] [] 1 ![1, 128])

/-- The node row an edge reads: its source word, read signed and clamped into [0, 49999]. -/
def srcRow {w : Nat} (ci : IVec EdgeCol w) (e : Fin 800000) : Fin 50000 :=
  ⟨min (ci (ix2 e 0)).toInt.toNat 49999, by omega⟩

/-- WHAT A GATHERED ELEMENT READS: element `(e, k)` of the result is element `(srcRow e, k)` of the operand. -/
theorem rowGather_operandIdx {w : Nat} (j : EdgeRows.Idx) (ci : IVec EdgeCol w) :
    (rowGather wfG).operandIdx j ci = ix2 (srcRow ci (j 0)) (j 1) := by
  funext a
  refine Fin.ext ?_
  match a with
  | ⟨0, _⟩ =>
    show (rowGather wfG).start j ci 0 + (rowGather wfG).batchCoord j 0 + (rowGather wfG).offCoord j 0 = _
    rw [GatherDims.batchCoord_eq_zero _ _ _ List.not_mem_nil, GatherDims.offCoord_eq_zero _ _ _ (show (0 : Fin Nodes.rank) ∉ Nodes.kept ([0] ++ []) from by decide)]
    simp only [Nat.add_zero]
    unfold GatherDims.start
    rw [dif_pos (show (0 : Fin Nodes.rank) ∈ (rowGather wfG).startIndexMap from List.mem_singleton.mpr rfl)]
    have hsi : (rowGather wfG).siIdx j ⟨List.idxOf (0 : Fin Nodes.rank) (rowGather wfG).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGather wfG).start j ci 1 + (rowGather wfG).batchCoord j 1 + (rowGather wfG).offCoord j 1 = (j 1).val
    rw [GatherDims.batchCoord_eq_zero _ _ _ List.not_mem_nil]
    unfold GatherDims.start
    rw [dif_neg (show (1 : Fin Nodes.rank) ∉ ([0] : List (Fin Nodes.rank)) from by decide)]
    unfold GatherDims.offCoord
    rw [dif_pos (show (1 : Fin Nodes.rank) ∈ Nodes.kept ([0] ++ []) from by decide)]
    simp only [Nat.zero_add, Nat.add_zero]
    rfl

end Cert.GraphConv

end
-- ==== Proof.SegmentSum.lean ====
/-
  The sparse aggregation, read one element at a time, on the extended reals.

  With exact arithmetic the accumulating scatter of the messages into a zero (or any) node array leaves, at
  node `r` and feature `c`, the array's own entry plus the sum, over the edges whose destination is `r`, of
  the message entries `(e, c)`: the sum over all [800000, 128] message entries that land on `(r, c)` is split
  into the sum over edges and the sum over features, and within one edge only feature `c` lands there.
  The gathered array at `(e, k)` is the node array at `(srcRow e, k)`.
  `aggregate v ri ci y` is the resulting neighbourhood sum: at `(r, c)`, the sum over incoming edges `e` of
  the edge weight `v e` times `y (srcRow e, c)`.
-/
import proofs.«153099_j43018392437371_2_alg».proof.Proof.EdgeIndex

noncomputable section

open scoped BigOperators

namespace Cert.GraphConv

open Idealize.ShloMosaic Idealize.ShloMosaic.ValueIdx

/-- One word (or one weight) per edge. -/
abbrev Edges : Shape := ⟨1, ![800000]⟩

/-- The edges whose destination word names node `r`. -/
def incoming {w : Nat} (ri : IVec EdgeCol w) (r : Fin 50000) : Finset (Fin 800000) :=
  Finset.univ.filter fun e => (ri (ix2 e 0)).toInt = ((r.val : Nat) : Int)

/-- THE ACCUMULATING SCATTER AT A NODE ENTRY: the operand's entry plus the sum over the incoming edges of their
    message entries at that feature. -/
theorem scatterAdd_apply (wfS : ScatterDims.WF Nodes EdgeCol EdgeRows [1] [0] [0] 1) {w : Nat}
    (x0 : Nodes.Idx → EReal) (ri : IVec EdgeCol w) (upd : EdgeRows.Idx → EReal) (i : Nodes.Idx) :
    Ideal.hostScatterAdd (rowScatter wfS) x0 ri upd i = x0 i + ∑ e ∈ incoming ri (i 0), upd (ix2 e (i 1)) := by
  obtain ⟨r, c, rfl⟩ : ∃ (r : Fin 50000) (c : Fin 128), i = ix2 r c := ⟨i 0, i 1, eq_ix2 i⟩
  unfold Ideal.hostScatterAdd
  refine congrArg (x0 (ix2 r c) + ·) ?_
  show _ = ∑ e ∈ incoming ri r, upd (ix2 e c)
  rw [Finset.sum_filter, sum_idx2]
  unfold incoming
  rw [Finset.sum_filter]
  refine Finset.sum_congr rfl fun e _ => ?_
  by_cases hA : (ri (ix2 e 0)).toInt = ((r.val : Nat) : Int)
  · rw [if_pos hA]
    have hk : ∀ k : Fin 128, (if (rowScatter wfS).resultIdx? (ix2 e k) ri = some (ix2 r c) then upd (ix2 e k) else 0)
        = if k = c then upd (ix2 e k) else 0 := fun k => by
      refine if_congr ?_ rfl rfl
      rw [rowScatter_lands]
      exact ⟨fun h => h.2, fun h => ⟨hA, h⟩⟩
    rw [Finset.sum_congr rfl fun k _ => hk k, Finset.sum_ite_eq', if_pos (Finset.mem_univ _)]
  · rw [if_neg hA]
    refine Finset.sum_eq_zero fun k _ => if_neg ?_
    rw [rowScatter_lands]
    exact fun h => hA h.1

/-- The same at node `r`, feature `c`, with the coordinates spelt out. -/
theorem scatterAdd_at (wfS : ScatterDims.WF Nodes EdgeCol EdgeRows [1] [0] [0] 1) {w : Nat}
    (x0 : Nodes.Idx → EReal) (ri : IVec EdgeCol w) (upd : EdgeRows.Idx → EReal) (r : Fin 50000) (c : Fin 128) :
    Ideal.hostScatterAdd (rowScatter wfS) x0 ri upd (ix2 r c) = x0 (ix2 r c) + ∑ e ∈ incoming ri r, upd (ix2 e c) :=
  scatterAdd_apply wfS x0 ri upd (ix2 r c)

/-- The same for the gather: entry `(e, k)` reads `(srcRow e, k)`. -/
theorem gather_at (wfG : GatherDims.WF Nodes EdgeCol EdgeRows [1] [0] [] [0] [] 1 ![1, 128]) {α : Type} {w : Nat}
    (y : Nodes.Idx → α) (ci : IVec EdgeCol w) (e : Fin 800000) (k : Fin 128) :
    Host.gather (rowGather wfG) y ci (ix2 e k) = y (ix2 (srcRow ci e) k) := by
  unfold Host.gather
  rw [rowGather_operandIdx]
  rfl

/-- THE GATHER AT A MESSAGE ENTRY: the node array's entry in the edge's source row, same feature. -/
theorem gather_apply (wfG : GatherDims.WF Nodes EdgeCol EdgeRows [1] [0] [] [0] [] 1 ![1, 128]) {α : Type} {w : Nat}
    (y : Nodes.Idx → α) (ci : IVec EdgeCol w) (j : EdgeRows.Idx) :
    Host.gather (rowGather wfG) y ci j = y (ix2 (srcRow ci (j 0)) (j 1)) := by
  unfold Host.gather
  rw [rowGather_operandIdx]
  rfl

/-- The neighbourhood sum of a node array `y`: at node `r`, feature `c`, the sum over the edges into `r` of the
    edge's weight times `y` at the edge's source row, feature `c`. -/
def aggregate {w : Nat} (v : Edges.Idx → EReal) (ri ci : IVec EdgeCol w) (y : Nodes.Idx → EReal) : Nodes.Idx → EReal :=
  fun i => ∑ e ∈ incoming ri (i 0), v (ix1 e) * y (ix2 (srcRow ci e) (i 1))

end Cert.GraphConv

end
-- ==== Proof.Linearity.lean ====
/-
  Aggregating the neighbours' features and then applying the dense layer is the same as applying the dense layer
  to every node and then aggregating — when every entry involved is a real number.

  At node `r` and output feature `c`:
    Σ_k (Σ_{e into r} v_e · x[src e, k]) · W[k, c]  =  Σ_{e into r} v_e · (Σ_k x[src e, k] · W[k, c]).
  This is distributivity and an exchange of two finite sums.  On the extended reals distributivity fails at
  the infinities, so the statement takes the entries of `x`, `W` and `v` to be real; the proof moves both sides
  into ℝ (the inclusion of ℝ commutes with finite sums and products) and rearranges there.
  The two arrangements of the whole layer — bias added, negative part cut off — then agree entry by entry.
-/
import proofs.«153099_j43018392437371_2_alg».proof.Proof.SegmentSum

noncomputable section

open scoped BigOperators

namespace Cert.GraphConv

open Idealize.ShloMosaic Idealize.ShloMosaic.ValueIdx

/-- The dense layer's weights. -/
abbrev Weights : Shape := ⟨2, ![128, 128]⟩
/-- One entry per output feature. -/
abbrev Feat : Shape := ⟨1, ![128]⟩

/-- The inclusion of the reals into the extended reals commutes with finite sums. -/
theorem coe_finsum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense layer without bias: row `r` of `y` times column `c` of `W`. -/
def transform (y : Nodes.Idx → EReal) (W : Weights.Idx → EReal) : Nodes.Idx → EReal :=
  fun i => ∑ k : Fin 128, y (ix2 (i 0) k) * W (ix2 k (i 1))

/-- The dense layer at row `r`, column `c`. -/
theorem transform_apply (y : Nodes.Idx → EReal) (W : Weights.Idx → EReal) (r : Fin 50000) (c : Fin 128) :
    transform y W (ix2 r c) = ∑ k : Fin 128, y (ix2 r k) * W (ix2 k c) := rfl

/-- The neighbourhood sum at node `r`, feature `c`. -/
theorem aggregate_apply {w : Nat} (v : Edges.Idx → EReal) (ri ci : IVec EdgeCol w) (y : Nodes.Idx → EReal)
    (r : Fin 50000) (c : Fin 128) :
    aggregate v ri ci y (ix2 r c) = ∑ e ∈ incoming ri r, v (ix1 e) * y (ix2 (srcRow ci e) c) := rfl

/-- LINEARITY: the dense layer of the neighbourhood sums is the neighbourhood sum of the dense layer, for real
    entries. -/
theorem transform_aggregate {w : Nat} (v : Edges.Idx → EReal) (ri ci : IVec EdgeCol w) (x : Nodes.Idx → EReal)
    (W : Weights.Idx → EReal) (hv : ∀ e, ∃ r : ℝ, v e = r) (hx : ∀ i, ∃ r : ℝ, x i = r) (hW : ∀ i, ∃ r : ℝ, W i = r) :
    transform (aggregate v ri ci x) W = aggregate v ri ci (transform x W) := by
  choose v' hv' using hv
  choose x' hx' using hx
  choose W' hW' using hW
  obtain rfl : v = fun e => ((v' e : ℝ) : EReal) := funext hv'
  obtain rfl : x = fun i => ((x' i : ℝ) : EReal) := funext hx'
  obtain rfl : W = fun i => ((W' i : ℝ) : EReal) := funext hW'
  funext i
  show (∑ k : Fin 128, (∑ e ∈ incoming ri (i 0), ((v' (ix1 e) : ℝ) : EReal) * ((x' (ix2 (srcRow ci e) k) : ℝ) : EReal))
        * ((W' (ix2 k (i 1)) : ℝ) : EReal))
      = ∑ e ∈ incoming ri (i 0), ((v' (ix1 e) : ℝ) : EReal)
        * ∑ k : Fin 128, ((x' (ix2 (srcRow ci e) k) : ℝ) : EReal) * ((W' (ix2 k (i 1)) : ℝ) : EReal)
  simp only [← EReal.coe_mul, ← coe_finsum]
  refine congrArg _ ?_
  simp only [Finset.sum_mul, Finset.mul_sum]
  rw [Finset.sum_comm]
  exact Finset.sum_congr rfl fun e _ => Finset.sum_congr rfl fun k _ => by ring

/-- The layer with the aggregation done first: cut off below zero, (neighbourhood sums times weights) plus bias. -/
def aggregateFirst {w : Nat} (x : Nodes.Idx → EReal) (W : Weights.Idx → EReal) (b : Feat.Idx → EReal)
    (v : Edges.Idx → EReal) (ri ci : IVec EdgeCol w) : Nodes.Idx → EReal :=
  fun i => max (transform (aggregate v ri ci x) W i + b (ix1 (i 1))) 0

/-- The layer with the dense transform done first: cut off below zero, neighbourhood sums of (features times
    weights) plus bias. -/
def transformFirst {w : Nat} (x : Nodes.Idx → EReal) (W : Weights.Idx → EReal) (b : Feat.Idx → EReal)
    (v : Edges.Idx → EReal) (ri ci : IVec EdgeCol w) : Nodes.Idx → EReal :=
  fun i => max (aggregate v ri ci (transform x W) i + b (ix1 (i 1))) 0

/-- The aggregate-first layer at node `r`, feature `c`. -/
theorem aggregateFirst_apply {w : Nat} (x : Nodes.Idx → EReal) (W : Weights.Idx → EReal) (b : Feat.Idx → EReal)
    (v : Edges.Idx → EReal) (ri ci : IVec EdgeCol w) (r : Fin 50000) (c : Fin 128) :
    aggregateFirst x W b v ri ci (ix2 r c)
      = max ((∑ k : Fin 128, aggregate v ri ci x (ix2 r k) * W (ix2 k c)) + b (ix1 c)) 0 := rfl

/-- The transform-first layer at node `r`, feature `c`. -/
theorem transformFirst_apply {w : Nat} (x : Nodes.Idx → EReal) (W : Weights.Idx → EReal) (b : Feat.Idx → EReal)
    (v : Edges.Idx → EReal) (ri ci : IVec EdgeCol w) (r : Fin 50000) (c : Fin 128) :
    transformFirst x W b v ri ci (ix2 r c)
      = max ((∑ e ∈ incoming ri r, v (ix1 e) * transform x W (ix2 (srcRow ci e) c)) + b (ix1 c)) 0 := rfl

/-- The two arrangements agree when the features, weights and edge weights are real. -/
theorem aggregateFirst_eq_transformFirst {w : Nat} (x : Nodes.Idx → EReal) (W : Weights.Idx → EReal) (b : Feat.Idx → EReal)
    (v : Edges.Idx → EReal) (ri ci : IVec EdgeCol w)
    (hv : ∀ e, ∃ r : ℝ, v e = r) (hx : ∀ i, ∃ r : ℝ, x i = r) (hW : ∀ i, ∃ r : ℝ, W i = r) :
    aggregateFirst x W b v ri ci = transformFirst x W b v ri ci := by
  unfold aggregateFirst transformFirst
  rw [transform_aggregate v ri ci x W hv hx hW]

end Cert.GraphConv

end
-- ==== Proof.KernelHost.lean ====
/-
  The kernel's result, entry by entry, is the layer with the aggregation done first.

  Before the grid runs, the host part of the kernel's program gathers each edge's source row of the features
  (through a narrower float format and back, which changes nothing for exact values), scales it by the edge
  weight and adds the messages into a zero array at each edge's destination row; it also lays the bias out as
  one row.  So the aggregated-features array the grid reads is the neighbourhood sum of the features, and
  the bias row at column `c` is the bias at `c`.  Putting these into what the grid points store gives, at node
  `r` and feature `c`, the maximum of zero and the bias at `c` plus the sum over `k` of (neighbourhood sum of
  feature `k` at `r`) times the weight `(k, c)`.
-/
import proofs.«153099_j43018392437371_2_alg».proof.Proof.KernelArray
import proofs.«153099_j43018392437371_2_alg».proof.Proof.KernelBlock
import proofs.«153099_j43018392437371_2_alg».proof.Proof.Linearity
import Idealize.ShloMosaic.Lib.StableHlo.Run

noncomputable section

open scoped BigOperators

namespace Cert.GraphConv.Kernel

open Cert.KernelIdeal Cert.KernelIdeal.Gen Cert.GraphConv
open Idealize.ShloMosaic Idealize.ShloMosaic.TcCoe Idealize.SL.Sem Idealize.ShloMosaic.ValueIdx Idealize.ShloMosaic.StableHlo

/-! ## The arrays the host part leaves, for any reading of the float operations -/

section AnyReading

variable {F : FTy → Type} [FloatOps F]
variable (m : (ℓ : Loc nD τ sig) → Buf (Elt F) ℓ)

/-- The edges' destination words, kept as a column. -/
abbrev destCol (c : Dev nD) : IVec S800000x1 32 :=
  broadcastInDim S800000x1 ![0] bcast_S800000_S800000x1_0 (m ((c : Thread nD τ).loc main_arg4))

/-- The edges' source words, a negative word moved up by the node count, kept as a column. -/
abbrev srcCol (c : Dev nD) : IVec S800000x1 32 :=
  broadcastInDim S800000x1 ![0] bcast_S800000_S800000x1_0
    (select (cmpi .slt (m ((c : Thread nD τ).loc main_arg5)) (broadcastInDim S800000 ![] bcast_S_S800000 (constantI S_ 32 0#32)))
      (addi (m ((c : Thread nD τ).loc main_arg5)) (broadcastInDim S800000 ![] bcast_S_S800000 (constantI S_ 32 50000#32)))
      (m ((c : Thread nD τ).loc main_arg5)))

/-- The aggregated-features array as the grid finds it: the messages added into a zero array. -/
theorem features_array (c : Dev nD) :
    (V m c main_v14 : S50000x128.Idx → Elt F .f32)
      = Host.scatterAdd scatter_S50000x128_S800000x1_S800000x128_1_0_0_1
          (broadcastInDim S50000x128 ![] bcast_S_S50000x128 (constant (F := F) S_ .f32 0x00000000#32))
          (destCol m c)
          (mulf (broadcastInDim S800000x128 ![0, 1] bcast_S800000x1_S800000x128_0_1
                  (broadcastInDim S800000x1 ![0] bcast_S800000_S800000x1_0 (m ((c : Thread nD τ).loc main_arg3))))
                (extf .f32 (Host.gather gather_S50000x128_S800000x1_S800000x128_1_0_n_n_0_1_1128
                  (truncf .bf16 (m ((c : Thread nD τ).loc main_arg0)) bitsLt_bf16_f32) (srcCol m c)) bitsLt_bf16_f32)) := by
  dsimp only [Gen.V, Gen.hostOps0]
  after_results <;> rfl

/-- The bias as the grid finds it: the [128] argument laid out as one row. -/
theorem bias_array (c : Dev nD) :
    (V m c main_v15 : S1x128.Idx → Elt F .f32)
      = shapeCast S1x128 (m ((c : Thread nD τ).loc main_arg2)) shapeCasts_S128_S1x128 := by
  dsimp only [Gen.V, Gen.hostOps0]
  after_results <;> rfl

end AnyReading

/-! ## With exact arithmetic -/

variable (m : (ℓ : Loc nD τ sig) → Buf (Elt Ideal) ℓ)

/-- The kernel's gather and scatter carry the row-gather and row-scatter dimension numbers. -/
theorem gatherDims_eq : gather_S50000x128_S800000x1_S800000x128_1_0_n_n_0_1_1128
    = rowGather Facts₀.gather_S50000x128_S800000x1_S800000x128_1_0_n_n_0_1_1128_wf := rfl
theorem scatterDims_eq : scatter_S50000x128_S800000x1_S800000x128_1_0_0_1
    = rowScatter Facts₀.scatter_S50000x128_S800000x1_S800000x128_1_0_0_1_wf := rfl

/-- The scatter's zero operand is zero everywhere. -/
theorem zero_spread (i : S50000x128.Idx) :
    broadcastInDim S50000x128 ![] bcast_S_S50000x128 (constant (F := Ideal) S_ .f32 0x00000000#32) i = (0 : EReal) := by
  rw [broadcastInDim_apply _ bcast_S_S50000x128 _ i ix0 (fun a => a.elim0), constant_apply, Ideal.ofBits_zero_f32]

/-- The edge weights spread along the features, at (e, k), are the weight of edge e. -/
theorem weight_spread (v : S800000.Idx → EReal) (e : Fin 800000) (k : Fin 128) :
    broadcastInDim S800000x128 ![0, 1] bcast_S800000x1_S800000x128_0_1
      (broadcastInDim S800000x1 ![0] bcast_S800000_S800000x1_0 v) (ix2 e k) = v (ix1 e) := by
  rw [broadcastInDim_apply _ bcast_S800000x1_S800000x128_0_1 _ (ix2 e k) (ix2 e 0) (fun a => match a with
      | ⟨0, _⟩ => by show e.val = if (800000 : Nat) = 1 then 0 else e.val; rw [if_neg (by decide)]
      | ⟨1, _⟩ => by show 0 = if (1 : Nat) = 1 then 0 else k.val; rw [if_pos rfl]),
    broadcastInDim_apply _ bcast_S800000_S800000x1_0 v (ix2 e 0) (ix1 e) (fun a => match a with
      | ⟨0, _⟩ => by show e.val = if (800000 : Nat) = 1 then 0 else e.val; rw [if_neg (by decide)])]

/-- THE AGGREGATED FEATURES the grid reads, at node r and feature k: the neighbourhood sum of the features. -/
theorem features_apply (c : Dev nD) (r : Fin 50000) (k : Fin 128) :
    @Eq EReal (V m c main_v14 (ix2 r k))
      (aggregate (m ((c : Thread nD τ).loc main_arg3)) (destCol m c) (srcCol m c) (m ((c : Thread nD τ).loc main_arg0)) (ix2 r k)) := by
  rw [features_array, Host.scatterAdd, Ideal.hostScatterAdd_def, scatterDims_eq, scatterAdd_at, zero_spread, zero_add,
    aggregate_apply]
  refine Finset.sum_congr rfl fun e _ => ?_
  rw [mulf_apply, extf_apply, gatherDims_eq, gather_at, truncf_apply, weight_spread]

/-- THE BIAS ROW the grid reads, at column q: the bias at q. -/
theorem bias_apply (c : Dev nD) (q : Fin 128) :
    @Eq EReal (V m c main_v15 (ix2 0 q)) (m ((c : Thread nD τ).loc main_arg2) (ix1 q)) := by
  rw [bias_array]
  exact (shapeCast_addUnit_apply ![128] (m ((c : Thread nD τ).loc main_arg2)) shapeCasts_S128_S1x128 (ix2 0 q)).trans
    (congrArg (m ((c : Thread nD τ).loc main_arg2)) (funext fun a => by
      match a with
      | ⟨0, _⟩ => rfl))

end Cert.GraphConv.Kernel

end
-- ==== Proof.KernelLayer.lean ====
/-
  The kernel's run: its result array is the aggregate-first layer of its arguments.

  At node `r` and feature `c` the result array holds what grid point `r / 5000` stored at row `r mod 5000`:
  the maximum of zero and the bias-row entry at `c` plus the sum over `k` of that point's features-block entry
  (r mod 5000, k) times the weight (k, c).  The block entry is the aggregated-features array at (r, k), which is
  the neighbourhood sum of feature `k` at node `r`; the weights are the weight argument; the bias-row entry is
  the bias at `c`.
-/
import proofs.«153099_j43018392437371_2_alg».proof.Proof.KernelHost

noncomputable section

open scoped BigOperators

namespace Cert.GraphConv.Kernel

open Cert.KernelIdeal Cert.KernelIdeal.Gen Cert.GraphConv
open Idealize.ShloMosaic Idealize.ShloMosaic.TcCoe Idealize.SL.Sem Idealize.ShloMosaic.ValueIdx

variable (m : (ℓ : Loc nD τ sig) → Buf (Elt Ideal) ℓ) (ρ : Dev nD → PrngReg)

/-- THE KERNEL'S RESULT ARRAY is the aggregate-first layer of the argument arrays. -/
theorem result_eq (c : Dev nD) :
    (dats m 0 c).arrAt 3 cfg0.N
      = aggregateFirst (m ((c : Thread nD τ).loc main_arg0)) (m ((c : Thread nD τ).loc main_arg1))
          (m ((c : Thread nD τ).loc main_arg2)) (m ((c : Thread nD τ).loc main_arg3)) (destCol m c) (srcCol m c) := by
  rw [final]
  funext i
  obtain ⟨r, q, rfl⟩ : ∃ (r : Fin 50000) (q : Fin 128), i = ix2 r q := ⟨i 0, i 1, eq_ix2 i⟩
  rw [aggregateFirst_apply, stitched_apply, within_ix2]
  refine (stored_apply (iblk m c 0 (pointOf (ix2 r q))) (iblk m c 1 (pointOf (ix2 r q))) (iblk m c 2 (pointOf (ix2 r q)))
    ⟨r.val % 5000, Nat.mod_lt _ (by decide)⟩ q).trans ?_
  rw [bias_block m c (pointOf (ix2 r q)) q, bias_apply]
  refine congrArg (fun s : EReal => max (s + m ((c : Thread nD τ).loc main_arg2) (ix1 q)) 0)
    (Finset.sum_congr rfl fun k _ => ?_)
  rw [features_block m c (pointOf (ix2 r q)) ⟨r.val % 5000, Nat.mod_lt _ (by decide)⟩ k (ix2 r k) (row_split r q k) rfl,
    weights_block m c (pointOf (ix2 r q)) k q, V_main_arg1, features_apply]

/-- THE KERNEL'S RUN: every weakly fair execution ends with the result array at the aggregate-first layer of the
    arguments, the arguments unchanged. -/
theorem run : θ_run defs (onTc (τ := τ) (main (F := Ideal))) ⟨m, fun _ => 0, ρ⟩ fun r => ∀ c : Dev nD,
      r.2.mem ((c : Thread nD τ).loc main_v16)
        = aggregateFirst (m ((c : Thread nD τ).loc main_arg0)) (m ((c : Thread nD τ).loc main_arg1))
            (m ((c : Thread nD τ).loc main_arg2)) (m ((c : Thread nD τ).loc main_arg3)) (destCol m c) (srcCol m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_eq m c), (h c).2⟩)
    (Cert.KernelIdeal.Value.run_blocks m ρ)

end Cert.GraphConv.Kernel

end
-- ==== Proof.ReferenceLayer.lean ====
/-
  The reference program's result, entry by entry, is the layer with the dense transform done first.

  The reference multiplies the features by the weights, gathers each edge's source row of the product, scales
  it by the edge weight, adds the messages into a zero array at each edge's destination row, adds the bias
  along rows and cuts off below zero.  Read at node `r`, feature `c`: the maximum of zero and the bias at `c`
  plus the sum over the edges into `r` of the edge weight times (source row of the features times column `c`
  of the weights).  The destination words are the edge-destination argument kept as a column; the source words
  are the edge-source argument with negative values moved up by the node count, kept as a column.
-/
import proofs.«153099_j43018392437371_2_alg».proof.Proof.Gen.ReferenceIdeal.Read
import proofs.«153099_j43018392437371_2_alg».proof.Proof.Linearity

noncomputable section

open scoped BigOperators

namespace Cert.GraphConv.Reference

open Cert.ReferenceIdeal Cert.ReferenceIdeal.Read Cert.GraphConv
open Idealize.ShloMosaic Idealize.ShloMosaic.ValueIdx

/-- The scatter's zero operand is zero everywhere. -/
theorem zero_operand (i : S50000x128.Idx) : val_main_v11 (F := Ideal) i = (0 : EReal) := by
  rw [val_main_v11_apply, val_main_cst_apply]
  exact Ideal.ofBits_zero_f32

/-- The cut-off level is zero everywhere. -/
theorem cutoff (i : S50000x128.Idx) : val_main_call0_v0 (F := Ideal) i = (0 : EReal) := by
  rw [val_main_call0_v0_apply, val_main_call0_cst_apply]
  exact Ideal.ofBits_zero_f32

/-- The bias spread over the rows, at row `r` and feature `c`, is the bias at `c`. -/
theorem bias_rows (x2 : (⟨S128, .f32⟩ : BufTy).Contents (Elt Ideal)) (r : Fin 50000) (c : Fin 128) :
    val_main_v15 (F := Ideal) x2 (ix2 r c) = x2 (ix1 c) := by
  rw [val_main_v15_apply, val_main_v14_apply]
  refine congrArg x2 (funext fun a => Fin.ext ?_)
  match a with
  | ⟨0, _⟩ => rfl

/-- The reference's gather and scatter carry the row-gather and row-scatter dimension numbers. -/
theorem gatherDims_eq : gather_S50000x128_S800000x1_S800000x128_1_0_n_n_0_1_1128
    = rowGather Facts₀.gather_S50000x128_S800000x1_S800000x128_1_0_n_n_0_1_1128_wf := rfl
theorem scatterDims_eq : scatter_S50000x128_S800000x1_S800000x128_1_0_0_1
    = rowScatter Facts₀.scatter_S50000x128_S800000x1_S800000x128_1_0_0_1_wf := rfl

/-- One message entry: the edge weight times the product's entry in the edge's source row. -/
theorem message (x0 : (⟨S50000x128, .f32⟩ : BufTy).Contents (Elt Ideal)) (x1 : (⟨S128x128, .f32⟩ : BufTy).Contents (Elt Ideal))
    (x3 : (⟨S800000, .f32⟩ : BufTy).Contents (Elt Ideal)) (x5 : (⟨S800000, .i32⟩ : BufTy).Contents (Elt Ideal))
    (e : Fin 800000) (c : Fin 128) :
    val_main_v10 (F := Ideal) x0 x1 x3 x5 (ix2 e c)
      = x3 (ix1 e) * transform x0 x1 (ix2 (srcRow (val_main_v7 (F := Ideal) x5) e) c) := by
  rw [val_main_v10_apply, val_main_v9_apply, val_main_v1_apply]
  unfold val_main_v8
  rw [gatherDims_eq, gather_at, val_main_v0_apply, transform_apply]
  have e3 : idx_main_v1 (idx_main_v9 (ix2 e c)) = ix1 e := funext fun a => Fin.ext (by
    match a with
    | ⟨0, _⟩ => rfl)
  have el : ∀ (g : Fin 50000) (k : Fin 128), lidx_main_v0 (ix2 g c) k = ix2 g k := fun g k => funext fun a => Fin.ext (by
    match a with
    | ⟨0, _⟩ => rfl
    | ⟨1, _⟩ => rfl)
  have er : ∀ (g : Fin 50000) (k : Fin 128), ridx_main_v0 (ix2 g c) k = ix2 k c := fun g k => funext fun a => Fin.ext (by
    match a with
    | ⟨0, _⟩ => rfl
    | ⟨1, _⟩ => rfl)
  rw [e3]
  simp only [el, er]
  rfl

/-- The scattered sums at node `r`, feature `c`: the sum over the edges into `r` of their message entries. -/
theorem scattered (x0 : (⟨S50000x128, .f32⟩ : BufTy).Contents (Elt Ideal)) (x1 : (⟨S128x128, .f32⟩ : BufTy).Contents (Elt Ideal))
    (x3 : (⟨S800000, .f32⟩ : BufTy).Contents (Elt Ideal)) (x4 x5 : (⟨S800000, .i32⟩ : BufTy).Contents (Elt Ideal))
    (r : Fin 50000) (c : Fin 128) :
    val_main_v13 (F := Ideal) x0 x1 x3 x4 x5 (ix2 r c)
      = ∑ e ∈ incoming (val_main_v12 (F := Ideal) x4) r, val_main_v10 (F := Ideal) x0 x1 x3 x5 (ix2 e c) := by
  rw [val_main_v13, Host.scatterAdd, Ideal.hostScatterAdd_def, scatterDims_eq, scatterAdd_at, zero_operand, zero_add]

/-- THE REFERENCE'S RESULT is the transform-first layer of its arguments. -/
theorem result_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S800000, .f32⟩ : BufTy).Contents (Elt Ideal))
    (x4 x5 : (⟨S800000, .i32⟩ : BufTy).Contents (Elt Ideal)) :
    val_main_v17 (F := Ideal) x0 x1 x2 x3 x4 x5
      = transformFirst x0 x1 x2 x3 (val_main_v12 (F := Ideal) x4) (val_main_v7 (F := Ideal) x5) := by
  funext i
  obtain ⟨r, c, rfl⟩ : ∃ (r : Fin 50000) (c : Fin 128), i = ix2 r c := ⟨i 0, i 1, eq_ix2 i⟩
  rw [val_main_v17_apply, val_main_v16_apply, cutoff, bias_rows, transformFirst_apply, scattered,
    Ideal.maximumf_def, Ideal.addf_def]
  rw [Finset.sum_congr rfl fun e _ => message x0 x1 x3 x5 e c]

end Cert.GraphConv.Reference

end
-- ==== Proof.FiniteInputs.lean ====
/-
  What the precondition says: every entry of the four float inputs is a real number.

  The precondition is the conjunction, over the features, the weights, the bias and the edge weights, of
  "every entry's absolute value is below +∞", each written as a reduction by `and` of the entrywise comparison.
  A reduction by `and` that comes out true was true at every entry; an extended real whose absolute value
  max(x, −x) is below +∞ is neither +∞ nor −∞, hence a real.
-/
import proofs.«153099_j43018392437371_2_alg».proof.Pre_finite_inputs
import Idealize.ShloMosaic.PureOps.Ideal
import Idealize.ShloMosaic.PureOps.Ideal.Laws
import Idealize.ShloMosaic.Lib.Pipeline.Value
import Idealize.ShloMosaic.Lib.ValueIdx
import Idealize.ShloMosaic.Lib.ReduceAll

noncomputable section

namespace Cert.GraphConv.Finite

open Cert.Pre_finite_inputs
open Idealize.ShloMosaic Idealize.ShloMosaic.ValueIdx

instance : Subsingleton S_.Idx := ⟨fun a b => funext fun d => d.elim0⟩

/-- An extended real whose absolute value is below +∞ is a real. -/
theorem real_of_abs_lt_top (x : EReal) (h : max x (-x) < ⊤) : ∃ r : ℝ, x = r := by
  by_cases hb : x = ⊥
  · rw [hb, EReal.neg_bot, max_eq_right bot_le] at h
    exact absurd h (lt_irrefl _)
  by_cases ht : x = ⊤
  · rw [ht, max_eq_left le_top] at h
    exact absurd h (lt_irrefl _)
  exact ⟨x.toReal, (EReal.coe_toReal ht hb).symm⟩

/-- The float word 0x7F800000 is +∞. -/
theorem inf_word : Ideal.ofBits .f32 0x7F800000#32 = (⊤ : EReal) := by
  simp [Ideal.ofBits, Ideal.ieee]

/-- One entry of one input: the comparison "absolute value below the +∞ word" being true makes it a real. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = r := by
  rw [cmpf_apply, broadcastInDim_apply _ hb _ i ix0 (fun a => a.elim0), constant_apply, Ideal.cmpf_def, inf_word] at h
  have h' : Ideal.cmp .olt (max (x i) (-(x i))) ⊤ = 1#1 := h
  refine real_of_abs_lt_top (x i) ?_
  simp only [Ideal.cmp] at h'
  by_contra hn
  rw [decide_eq_false hn] at h'
  exact absurd h' (by decide)

/-- THE PRECONDITION, READ: all four float inputs have real entries. -/
theorem inputs_real [Facts] (x0 : FVec Ideal S50000x128 .f32) (x1 : FVec Ideal S128x128 .f32) (x2 : FVec Ideal S128 .f32)
    (x3 : FVec Ideal S800000 .f32) (x4 x5 : IVec S800000 32)
    (h : fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h ix0
  dsimp only [fn, fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨fun i => entry_real x0 _ i (Host.reduce_andi_all _ _ _ _ ix0 e0 i),
    fun i => entry_real x1 _ i (Host.reduce_andi_all _ _ _ _ ix0 e1 i),
    fun i => entry_real x2 _ i (Host.reduce_andi_all _ _ _ _ ix0 e2 i),
    fun i => entry_real x3 _ i (Host.reduce_andi_all _ _ _ _ ix0 e3 i)⟩

end Cert.GraphConv.Finite

end
-- ==== Proof.lean ====
/-
  A graph convolution layer, two arrangements of one function.

  Inputs: node features x [50000, 128], dense weights W [128, 128], a bias b [128], and 800000 weighted edges
  (weight v_e, destination word, source word).  An edge whose destination word, read as a signed integer, is not
  a node index contributes nothing; its source word is first moved up by the node count when negative and
  then clamped into the node range.

  The reference transforms every node (x · W), sums over the edges into node r the weight times the transformed
  source row, adds the bias and cuts off below zero.  The kernel first sums over the edges into node r the
  weight times the RAW source row (on the host, through a narrower float format that is the identity on exact
  values), and then, over ten row blocks of 5000 nodes, multiplies by W, adds the bias and cuts off below zero.

  With exact arithmetic on the extended reals the two agree entry by entry:
      Σ_k (Σ_{e → r} v_e · x[src e, k]) · W[k, c]  =  Σ_{e → r} v_e · (Σ_k x[src e, k] · W[k, c]),
  which is distributivity and an exchange of finite sums.  Distributivity fails at the infinities, and this
  is where the precondition is used: every entry of x, W and v is finite, hence real, and the identity holds in ℝ.

  The modules: EdgeIndex (where a message lands, which row it reads), SegmentSum (the exact scatter-add and the
  gather read at an entry), Linearity (the identity above and the two arrangements), ReferenceLayer (the
  reference's result is the transform-first arrangement), KernelBlock / KernelArray / KernelHost / KernelLayer
  (one grid point's stored block, the ten blocks as one array, the arrays the host part leaves, the kernel's result
  is the aggregate-first arrangement), FiniteInputs (the precondition gives real entries).
-/
import proofs.«153099_j43018392437371_2_alg».proof.Defs
import proofs.«153099_j43018392437371_2_alg».proof.Proof.Gen.Kernel
import proofs.«153099_j43018392437371_2_alg».proof.Proof.Gen.Kernel.Skeleton
import proofs.«153099_j43018392437371_2_alg».proof.Proof.Gen.Kernel.Launch
import proofs.«153099_j43018392437371_2_alg».proof.Proof.Gen.Kernel.Points
import proofs.«153099_j43018392437371_2_alg».proof.Proof.Gen.Kernel.Frame
import proofs.«153099_j43018392437371_2_alg».proof.Proof.Gen.KernelIdeal
import proofs.«153099_j43018392437371_2_alg».proof.Proof.Gen.KernelIdeal.Skeleton
import proofs.«153099_j43018392437371_2_alg».proof.Proof.Gen.KernelIdeal.Launch
import proofs.«153099_j43018392437371_2_alg».proof.Proof.Gen.KernelIdeal.Points
import proofs.«153099_j43018392437371_2_alg».proof.Proof.Gen.KernelIdeal.Frame
import proofs.«153099_j43018392437371_2_alg».proof.Proof.Gen.ReferenceIdeal
import proofs.«153099_j43018392437371_2_alg».proof.Proof.Gen.Pre_finite_inputs
import proofs.«153099_j43018392437371_2_alg».proof.Proof.Gen.KernelIdeal.Value
import proofs.«153099_j43018392437371_2_alg».proof.Proof.Gen.ReferenceIdeal.Run
import proofs.«153099_j43018392437371_2_alg».proof.Proof.Gen.ReferenceIdeal.Read
import proofs.«153099_j43018392437371_2_alg».proof.Proof.KernelLayer
import proofs.«153099_j43018392437371_2_alg».proof.Proof.ReferenceLayer
import proofs.«153099_j43018392437371_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read with exact arithmetic. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The index columns the two programs build from the edge arguments are the same arrays. -/
theorem destCol_eq (m : (ℓ : Loc Cert.KernelIdeal.nD Cert.KernelIdeal.τ Cert.KernelIdeal.sig) → Buf (Elt Ideal) ℓ)
    (c : Dev Cert.KernelIdeal.nD) :
    Cert.ReferenceIdeal.Read.val_main_v12 (F := Ideal)
        (m ((c.tc : Thread Cert.KernelIdeal.nD Cert.KernelIdeal.τ).loc Cert.KernelIdeal.main_arg4))
      = Cert.GraphConv.Kernel.destCol m c := rfl

theorem srcCol_eq (m : (ℓ : Loc Cert.KernelIdeal.nD Cert.KernelIdeal.τ Cert.KernelIdeal.sig) → Buf (Elt Ideal) ℓ)
    (c : Dev Cert.KernelIdeal.nD) :
    Cert.ReferenceIdeal.Read.val_main_v7 (F := Ideal)
        (m ((c.tc : Thread Cert.KernelIdeal.nD Cert.KernelIdeal.τ).loc Cert.KernelIdeal.main_arg5))
      = Cert.GraphConv.Kernel.srcCol m c := rfl

/-- From memories that agree on the arguments, with finite float inputs, the two programs end with equal results:
    the kernel's is the aggregate-first arrangement, the reference's the transform-first one, and on real entries
    the two arrangements are one function. -/
theorem algebraic : Cert.algebraic_KernelIdeal_ReferenceIdeal := by
  intro m ρ m' ρ' hpre hagree
  refine ⟨_, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, -, hv⟩ := Cert.GraphConv.Finite.inputs_real _ _ _ _ _ _ (hpre c)
  rw [Cert.ReferenceIdeal.Read.val_main_v17_eq, Cert.GraphConv.Reference.result_eq,
    (hagree c).1, (hagree c).2.1, (hagree c).2.2.1, (hagree c).2.2.2.1, (hagree c).2.2.2.2.1, (hagree c).2.2.2.2.2,
    destCol_eq, srcCol_eq]
  exact (Cert.GraphConv.aggregateFirst_eq_transformFirst _ _ _ _ _ _ hv hx hW).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
